-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  main_v3
-- ==== Kernel.lean ====
abbrev S4194304x3 : Shape := ⟨2, ![4194304, 3]⟩
abbrev S3x4194304 : Shape := ⟨2, ![3, 4194304]⟩
abbrev S524288x128 : Shape := ⟨2, ![524288, 128]⟩
abbrev S3x16384 : Shape := ⟨2, ![3, 16384]⟩
abbrev S2048x128 : Shape := ⟨2, ![2048, 128]⟩
abbrev S1x16384 : Shape := ⟨2, ![1, 16384]⟩
abbrev S16x16384 : Shape := ⟨2, ![16, 16384]⟩
abbrev S16384x16 : Shape := ⟨2, ![16384, 16]⟩
abbrev S4194304x16 : Shape := ⟨2, ![4194304, 16]⟩

abbrev nBuf : Space → Nat
  | .hbm => 4
  | .vmem => 4
  | .smem => 0
  | _ => 0

abbrev bufTy : (tb : Table) → Fin (tcTables nBuf tb) → BufTy
  | .hbm, ⟨0, _⟩ => ⟨S4194304x3, .f32⟩
  | .hbm, ⟨1, _⟩ => ⟨S3x4194304, .f32⟩
  | .hbm, ⟨2, _⟩ => ⟨S524288x128, .f32⟩
  | .hbm, ⟨3, _⟩ => ⟨S4194304x16, .f32⟩
  | .local _ .vmem, ⟨0, _⟩ => ⟨S3x16384, .f32⟩
  | .local _ .vmem, ⟨1, _⟩ => ⟨S3x16384, .f32⟩
  | .local _ .vmem, ⟨2, _⟩ => ⟨S2048x128, .f32⟩
  | .local _ .vmem, ⟨3, _⟩ => ⟨S2048x128, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4194304x3_S3x4194304_1_0 : S4194304x3.Transposes [1, 0] S3x4194304
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  slices_S3x16384_o0_0_S1x16384 : S3x16384.Slices ![0, 0] S1x16384
  slices_S3x16384_o1_0_S1x16384 : S3x16384.Slices ![1, 0] S1x16384
  slices_S3x16384_o2_0_S1x16384 : S3x16384.Slices ![2, 0] S1x16384
  concatenates_S1x16384_S1x16384_S1x16384_S1x16384_S1x16384_S1x16384_S1x16384_S1x16384_S1x16384_S1x16384_S1x16384_S1x16384_S1x16384_S1x16384_S1x16384_S1x16384_S16x16384_d0 : Shape.Concatenates [S1x16384, S1x16384, S1x16384, S1x16384, S1x16384, S1x16384, S1x16384, S1x16384, S1x16384, S1x16384, S1x16384, S1x16384, S1x16384, S1x16384, S1x16384, S1x16384] S16x16384 0
  transposes_S16x16384_p1_0_S16384x16 : S16x16384.Transposes [1, 0] S16384x16
  shapeCasts_S16384x16_S2048x128 : S16384x16.ShapeCasts S2048x128
  inb_S2048x128_S2048x128_0_0 : ∀ a, (![0, 0] : Fin 2 → Nat) a + S2048x128.size a ≤ S2048x128.size a
  h_S2048x128 : 0 < S2048x128.numel
  shapeCasts_S524288x128_S4194304x16 : S524288x128.ShapeCasts S4194304x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x4194304.size a
  hwx0_0 : ∀ i : grid0.Coords, EltTy.bits .f32 = 32 ∨ (Rect.block (s := S3x4194304) S3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S524288x128.size a
  hwx0_1 : ∀ i : grid0.Coords, EltTy.bits .f32 = 32 ∨ (Rect.block (s := S524288x128) S2048x128.size (cc0_transform_1 i) (hinb0_1 i)).WholeWords (EltTy.packing .f32)

variable [Facts₀]

abbrev win0_0 : Pipeline.Window sig grid0 :=
  Pipeline.Window.ofSpec (Memref.whole main_v0) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S_ : Shape := ⟨0, ![]⟩
abbrev S4194304x1 : Shape := ⟨2, ![4194304, 1]⟩
abbrev S4194304 : Shape := ⟨1, ![4194304]⟩
abbrev S4194304x16 : Shape := ⟨2, ![4194304, 16]⟩

abbrev nBuf : Space → Nat
  | .hbm => 126
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S_, .f32⟩
  | .hbm, ⟨2, _⟩ => ⟨S4194304x3, .f32⟩
  | .hbm, ⟨3, _⟩ => ⟨S4194304x3, .f32⟩
  | .hbm, ⟨4, _⟩ => ⟨S_, .f32⟩
  | .hbm, ⟨5, _⟩ => ⟨S4194304x3, .f32⟩
  | .hbm, ⟨6, _⟩ => ⟨S4194304x3, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S_, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S_, .f32⟩
  | .hbm, ⟨31, _⟩ => ⟨S4194304, .f32⟩
  | .hbm, ⟨32, _⟩ => ⟨S4194304, .f32⟩
  | .hbm, ⟨33, _⟩ => ⟨S_, .f32⟩
  | .hbm, ⟨34, _⟩ => ⟨S4194304, .f32⟩
  | .hbm, ⟨35, _⟩ => ⟨S4194304, .f32⟩
  | .hbm, ⟨36, _⟩ => ⟨S_, .f32⟩
  | .hbm, ⟨37, _⟩ => ⟨S4194304, .f32⟩
  | .hbm, ⟨38, _⟩ => ⟨S4194304, .f32⟩
  | .hbm, ⟨39, _⟩ => ⟨S4194304, .f32⟩
  | .hbm, ⟨40, _⟩ => ⟨S4194304, .f32⟩
  | .hbm, ⟨41, _⟩ => ⟨S_, .f32⟩
  | .hbm, ⟨42, _⟩ => ⟨S4194304, .f32⟩
  | .hbm, ⟨43, _⟩ => ⟨S4194304, .f32⟩
  | .hbm, ⟨44, _⟩ => ⟨S_, .f32⟩
  | .hbm, ⟨45, _⟩ => ⟨S4194304, .f32⟩
  | .hbm, ⟨46, _⟩ => ⟨S4194304, .f32⟩
  | .hbm, ⟨47, _⟩ => ⟨S4194304, .f32⟩
  | .hbm, ⟨48, _⟩ => ⟨S_, .f32⟩
  | .hbm, ⟨49, _⟩ => ⟨S4194304, .f32⟩
  | .hbm, ⟨50, _⟩ => ⟨S4194304, .f32⟩
  | .hbm, ⟨51, _⟩ => ⟨S_, .f32⟩
  | .hbm, ⟨52, _⟩ => ⟨S4194304, .f32⟩
  | .hbm, ⟨53, _⟩ => ⟨S4194304, .f32⟩
  | .hbm, ⟨54, _⟩ => ⟨S_, .f32⟩
  | .hbm, ⟨55, _⟩ => ⟨S4194304, .f32⟩
  | .hbm, ⟨56, _⟩ => ⟨S4194304, .f32⟩
  | .hbm, ⟨57, _⟩ => ⟨S4194304, .f32⟩
  | .hbm, ⟨58, _⟩ => ⟨S4194304, .f32⟩
  | .hbm, ⟨59, _⟩ => ⟨S_, .f32⟩
  | .hbm, ⟨60, _⟩ => ⟨S4194304, .f32⟩
  | .hbm, ⟨61, _⟩ => ⟨S4194304, .f32⟩
  | .hbm, ⟨62, _⟩ => ⟨S4194304, .f32⟩
  | .hbm, ⟨63, _⟩ => ⟨S_, .f32⟩
  | .hbm, ⟨64, _⟩ => ⟨S4194304, .f32⟩
  | .hbm, ⟨65, _⟩ => ⟨S4194304, .f32⟩
  | .hbm, ⟨66, _⟩ => ⟨S_, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S4194304, .f32⟩
  | .hbm, ⟨71, _⟩ => ⟨S4194304, .f32⟩
  | .hbm, ⟨72, _⟩ => ⟨S_, .f32⟩
  | .hbm, ⟨73, _⟩ => ⟨S4194304, .f32⟩
  | .hbm, ⟨74, _⟩ => ⟨S4194304, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S4194304, .f32⟩
  | .hbm, ⟨82, _⟩ => ⟨S_, .f32⟩
  | .hbm, ⟨83, _⟩ => ⟨S4194304, .f32⟩
  | .hbm, ⟨84, _⟩ => ⟨S4194304, .f32⟩
  | .hbm, ⟨85, _⟩ => ⟨S4194304, .f32⟩
  | .hbm, ⟨86, _⟩ => ⟨S4194304, .f32⟩
  | .hbm, ⟨87, _⟩ => ⟨S_, .f32⟩
  | .hbm, ⟨88, _⟩ => ⟨S4194304, .f32⟩
  | .hbm, ⟨89, _⟩ => ⟨S4194304, .f32⟩
  | .hbm, ⟨90, _⟩ => ⟨S_, .f32⟩
  | .hbm, ⟨91, _⟩ => ⟨S4194304, .f32⟩
  | .hbm, ⟨92, _⟩ => ⟨S4194304, .f32⟩
  | .hbm, ⟨93, _⟩ => ⟨S4194304, .f32⟩
  | .hbm, ⟨94, _⟩ => ⟨S4194304, .f32⟩
  | .hbm, ⟨95, _⟩ => ⟨S4194304, .f32⟩
  | .hbm, ⟨96, _⟩ => ⟨S_, .f32⟩
  | .hbm, ⟨97, _⟩ => ⟨S4194304, .f32⟩
  | .hbm, ⟨98, _⟩ => ⟨S4194304, .f32⟩
  | .hbm, ⟨99, _⟩ => ⟨S4194304, .f32⟩
  | .hbm, ⟨100, _⟩ => ⟨S4194304, .f32⟩
  | .hbm, ⟨101, _⟩ => ⟨S_, .f32⟩
  | .hbm, ⟨102, _⟩ => ⟨S4194304, .f32⟩
  | .hbm, ⟨103, _⟩ => ⟨S4194304, .f32⟩
  | .hbm, ⟨104, _⟩ => ⟨S_, .f32⟩
  | .hbm, ⟨105, _⟩ => ⟨S4194304, .f32⟩
  | .hbm, ⟨106, _⟩ => ⟨S4194304, .f32⟩
  | .hbm, ⟨107, _⟩ => ⟨S4194304, .f32⟩
  | .hbm, ⟨108, _⟩ => ⟨S4194304, .f32⟩
  | .hbm, ⟨109, _⟩ => ⟨S4194304x1, .f32⟩
  | .hbm, ⟨110, _⟩ => ⟨S4194304x1, .f32⟩
  | .hbm, ⟨111, _⟩ => ⟨S4194304x1, .f32⟩
  | .hbm, ⟨112, _⟩ => ⟨S4194304x1, .f32⟩
  | .hbm, ⟨113, _⟩ => ⟨S4194304x1, .f32⟩
  | .hbm, ⟨114, _⟩ => ⟨S4194304x1, .f32⟩
  | .hbm, ⟨115, _⟩ => ⟨S4194304x1, .f32⟩
  | .hbm, ⟨116, _⟩ => ⟨S4194304x1, .f32⟩
  | .hbm, ⟨117, _⟩ => ⟨S4194304x1, .f32⟩
  | .hbm, ⟨118, _⟩ => ⟨S4194304x1, .f32⟩
  | .hbm, ⟨119, _⟩ => ⟨S4194304x1, .f32⟩
  | .hbm, ⟨120, _⟩ => ⟨S4194304x1, .f32⟩
  | .hbm, ⟨121, _⟩ => ⟨S4194304x1, .f32⟩
  | .hbm, ⟨122, _⟩ => ⟨S4194304x1, .f32⟩
  | .hbm, ⟨123, _⟩ => ⟨S4194304x1, .f32⟩
  | .hbm, ⟨124, _⟩ => ⟨S4194304x1, .f32⟩
  | .hbm, ⟨125, _⟩ => ⟨S4194304x16, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_v32 : Ref sig .tc := ⟨.hbm, 43, rfl⟩
abbrev main_cst_9 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_cst_12 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_14 : Ref sig .tc := ⟨.hbm, 63, rfl⟩
abbrev main_v47 : Ref sig .tc := ⟨.hbm, 64, rfl⟩
abbrev main_v48 : Ref sig .tc := ⟨.hbm, 65, rfl⟩
abbrev main_cst_15 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_16 : Ref sig .tc := ⟨.hbm, 72, rfl⟩
abbrev main_v54 : Ref sig .tc := ⟨.hbm, 73, rfl⟩
abbrev main_v55 : Ref sig .tc := ⟨.hbm, 74, rfl⟩
abbrev main_cst_17 : Ref sig .tc := ⟨.hbm, 75, rfl⟩
abbrev main_v56 : Ref sig .tc := ⟨.hbm, 76, rfl⟩
abbrev main_v57 : Ref sig .tc := ⟨.hbm, 77, rfl⟩
abbrev main_cst_18 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_19 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_20 : Ref sig .tc := ⟨.hbm, 87, rfl⟩
abbrev main_v65 : Ref sig .tc := ⟨.hbm, 88, rfl⟩
abbrev main_v66 : Ref sig .tc := ⟨.hbm, 89, rfl⟩
abbrev main_cst_21 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_22 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_23 : Ref sig .tc := ⟨.hbm, 101, rfl⟩
abbrev main_v76 : Ref sig .tc := ⟨.hbm, 102, rfl⟩
abbrev main_v77 : Ref sig .tc := ⟨.hbm, 103, rfl⟩
abbrev main_cst_24 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]

class Facts₀ : Prop where
  bcast_S_S4194304x3 : S_.BroadcastsInDim S4194304x3 (![] : Fin 0 → Fin S4194304x3.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 : Shape.Concatenates [S4194304x1, S4194304x1, S4194304x1, S4194304x1, S4194304x1, S4194304x1, S4194304x1, S4194304x1, S4194304x1, S4194304x1, S4194304x1, S4194304x1, S4194304x1, S4194304x1, S4194304x1, S4194304x1] S4194304x16 1

variable [Facts₀]

class Facts : Prop extends Facts₀ where

variable [Facts]
-- ==== Proof.Spec.lean ====
/-
  The degree-4 real spherical-harmonics encoding, as ONE function of the point array.

  A point `(a₀, a₁, a₂)` of the unit cube is first centred, coordinate by coordinate, `a ↦ (a − ½)·2`, giving
  `(x, y, z)` in `[−1, 1]³`; the encoding is then the sixteen polynomials of degree at most three in `x, y, z`
  listed in `basis` — the constant, the three linear ones, the five quadratic ones and the seven cubic ones —
  each a product of one 32-bit float constant with monomials and differences of `xx, yy, zz, xy, yz, xz`.
  The constants are kept as their binary words and the products and differences in one fixed grouping: nothing
  here uses a law of arithmetic, so the definitions make sense, and are used, at every float instance.

  `encode p` is the array `[4194304, 16]` whose row `n` holds the sixteen basis values at the centred point `n`
  of `p : [4194304, 3]`.
-/
import Idealize.ShloMosaic.PureOps.Ideal
import Idealize.ShloMosaic.Lib.ValueIdx

noncomputable section

namespace Cert.SphHarm

open Idealize.ShloMosaic Idealize.ShloMosaic.ValueIdx

variable {F : FTy → Type} [FloatOps F]

local infixl:70 " ⊗ " => FloatOps.mulf
local infixl:65 " ⊖ " => FloatOps.subf
local notation "lit(" w ")" => FloatOps.ofBits FTy.f32 w

/-- A coordinate of the unit interval moved to `[−1, 1]`: `(a − ½)·2`. -/
def centre (a : F .f32) : F .f32 := (a ⊖ lit(0x3F000000#32)) ⊗ lit(0x40000000#32)

/-- The sixteen basis values at a centred point `(x, y, z)`, in the order of the encoding's channel axis:
    channel 0 the constant, 1–3 linear in `y, z, x`, 4–8 quadratic, 9–15 cubic. -/
def basis (x y z : F .f32) : Fin 16 → F .f32
  | ⟨0, _⟩ => lit(0x3E906EBB#32)
  | ⟨1, _⟩ => lit(0xBEFA2A1C#32) ⊗ y
  | ⟨2, _⟩ => lit(0x3EFA2A1C#32) ⊗ z
  | ⟨3, _⟩ => lit(0xBEFA2A1C#32) ⊗ x
  | ⟨4, _⟩ => lit(0x3F8BD8A1#32) ⊗ (x ⊗ y)
  | ⟨5, _⟩ => lit(0xBF8BD8A1#32) ⊗ (y ⊗ z)
  | ⟨6, _⟩ => lit(0x3EA17B01#32) ⊗ (lit(0x40000000#32) ⊗ (z ⊗ z) ⊖ x ⊗ x ⊖ y ⊗ y)
  | ⟨7, _⟩ => lit(0xBF8BD8A1#32) ⊗ (x ⊗ z)
  | ⟨8, _⟩ => lit(0x3F0BD8A1#32) ⊗ (x ⊗ x ⊖ y ⊗ y)
  | ⟨9, _⟩ => lit(0xBF170D19#32) ⊗ y ⊗ (lit(0x40400000#32) ⊗ (x ⊗ x) ⊖ y ⊗ y)
  | ⟨10, _⟩ => lit(0x4038FFC7#32) ⊗ (x ⊗ y) ⊗ z
  | ⟨11, _⟩ => lit(0xBEEA01E8#32) ⊗ y ⊗ (lit(0x40800000#32) ⊗ (z ⊗ z) ⊖ x ⊗ x ⊖ y ⊗ y)
  | ⟨12, _⟩ => lit(0x3EBF10F8#32) ⊗ z ⊗ (lit(0x40000000#32) ⊗ (z ⊗ z) ⊖ lit(0x40400000#32) ⊗ (x ⊗ x) ⊖ lit(0x40400000#32) ⊗ (y ⊗ y))
  | ⟨13, _⟩ => lit(0xBEEA01E8#32) ⊗ x ⊗ (lit(0x40800000#32) ⊗ (z ⊗ z) ⊖ x ⊗ x ⊖ y ⊗ y)
  | ⟨14, _⟩ => lit(0x3FB8FFC7#32) ⊗ z ⊗ (x ⊗ x ⊖ y ⊗ y)
  | ⟨15, _⟩ => lit(0xBF170D19#32) ⊗ x ⊗ (x ⊗ x ⊖ lit(0x40400000#32) ⊗ (y ⊗ y))
  | ⟨_ + 16, h⟩ => absurd h (by omega)

/-- The encoding of a point array: entry `(n, k)` is basis value `k` at the centred point `n`. -/
def encode (p : (⟨2, ![4194304, 3]⟩ : Shape).Idx → F .f32) : (⟨2, ![4194304, 16]⟩ : Shape).Idx → F .f32 :=
  fun i => basis (centre (p (ix2 (i 0 : Fin 4194304) (0 : Fin 3)))) (centre (p (ix2 (i 0 : Fin 4194304) (1 : Fin 3))))
    (centre (p (ix2 (i 0 : Fin 4194304) (2 : Fin 3)))) (i 1 : Fin 16)

/-- The encoding read at explicit coordinates. -/
theorem encode_apply (p : (⟨2, ![4194304, 3]⟩ : Shape).Idx → F .f32) (n : Fin 4194304) (k : Fin 16) :
    encode p (ix2 n k) = basis (centre (p (ix2 n (0 : Fin 3)))) (centre (p (ix2 n (1 : Fin 3)))) (centre (p (ix2 n (2 : Fin 3)))) k := rfl

end Cert.SphHarm

end
-- ==== Proof.RefEncode.lean ====
/-
  The reference computes the encoding: its result array is `encode` of its argument.

  The reference centres the whole point array, slices out its three columns as flat vectors `x, y, z` of length
  4194304, forms each of the sixteen basis values as a flat vector by pointwise products and differences, gives
  each a trailing unit axis and joins the sixteen `[4194304, 1]` columns along that axis. So entry `(n, k)` of
  the result is entry `(n, 0)` of column `k`, which is basis value `k` of `(x n, y n, z n)`, and `x n`, `y n`,
  `z n` are the centred entries `(n, 0)`, `(n, 1)`, `(n, 2)` of the argument. No law of arithmetic is used:
  the reference's products and differences are grouped exactly as in `basis`.
-/
import proofs.«113142_j88450556494138_2_alg».proof.Proof.Gen.ReferenceIdeal.Read
import proofs.«113142_j88450556494138_2_alg».proof.Proof.Spec
import Idealize.ShloMosaic.Lib.Pipeline.Value
import Idealize.ShloMosaic.Lib.ValueIdx

noncomputable section

namespace Cert.ReferenceIdeal.Encode

open Cert.ReferenceIdeal Cert.ReferenceIdeal.Gen Cert.ReferenceIdeal.Read
open Idealize.ShloMosaic Idealize.ShloMosaic.ValueIdx Cert.SphHarm

variable {F : FTy → Type} [FloatOps F]

/-! ## The three coordinate vectors -/

/-- Entry `i` of the flat vector of first coordinates is the centred entry `(i, 0)` of the argument. -/
theorem xs_apply (p : (⟨S4194304x3, .f32⟩ : BufTy).Contents (Elt F)) (i : S4194304.Idx) :
    val_main_v5 (F := F) p i = centre (p (ix2 (i 0 : Fin 4194304) (0 : Fin 3))) := by
  rw [val_main_v5_apply, val_main_v4_apply]
  have e : idx_main_v4 (idx_main_v5 i) = ix2 (i 0 : Fin 4194304) (0 : Fin 3) :=
    funext fun a => Fin.ext (match a with | ⟨0, _⟩ => Nat.div_one _ | ⟨1, _⟩ => rfl)
  rw [e]; rfl

/-- Entry `i` of the flat vector of second coordinates is the centred entry `(i, 1)`. -/
theorem ys_apply (p : (⟨S4194304x3, .f32⟩ : BufTy).Contents (Elt F)) (i : S4194304.Idx) :
    val_main_v7 (F := F) p i = centre (p (ix2 (i 0 : Fin 4194304) (1 : Fin 3))) := by
  rw [val_main_v7_apply, val_main_v6_apply]
  have e : idx_main_v6 (idx_main_v7 i) = ix2 (i 0 : Fin 4194304) (1 : Fin 3) :=
    funext fun a => Fin.ext (match a with | ⟨0, _⟩ => Nat.div_one _ | ⟨1, _⟩ => rfl)
  rw [e]; rfl

/-- Entry `i` of the flat vector of third coordinates is the centred entry `(i, 2)`. -/
theorem zs_apply (p : (⟨S4194304x3, .f32⟩ : BufTy).Contents (Elt F)) (i : S4194304.Idx) :
    val_main_v9 (F := F) p i = centre (p (ix2 (i 0 : Fin 4194304) (2 : Fin 3))) := by
  rw [val_main_v9_apply, val_main_v8_apply]
  have e : idx_main_v8 (idx_main_v9 i) = ix2 (i 0 : Fin 4194304) (2 : Fin 3) :=
    funext fun a => Fin.ext (match a with | ⟨0, _⟩ => Nat.div_one _ | ⟨1, _⟩ => rfl)
  rw [e]; rfl

/-! ## The sixteen columns -/

/-- A flat vector that is, entry by entry, basis value `k` of the three coordinate vectors is basis value `k` of the
    centred entries of the argument's row. -/
theorem column_of (p : (⟨S4194304x3, .f32⟩ : BufTy).Contents (Elt F)) (v : S4194304.Idx → F .f32) (i : S4194304.Idx) (k : Fin 16)
    (h : v i = basis (val_main_v5 (F := F) p i) (val_main_v7 (F := F) p i) (val_main_v9 (F := F) p i) k) :
    v i = basis (centre (p (ix2 (i 0 : Fin 4194304) (0 : Fin 3)))) (centre (p (ix2 (i 0 : Fin 4194304) (1 : Fin 3))))
      (centre (p (ix2 (i 0 : Fin 4194304) (2 : Fin 3)))) k := by
  rw [h, xs_apply, ys_apply, zs_apply]

set_option maxHeartbeats 1600000 in
/-- THE REFERENCE'S RESULT IS THE ENCODING. Entry `(n, k)` of the joined array is entry `(n, 0)` of column `k` (the
    columns have extent one along the joined axis, so the columns before column `k` take up `k` places), that column
    is the reference's flat vector for channel `k` read at `n`, and that vector is, by the reference's own text, basis
    value `k` of the three coordinate vectors. -/
theorem ref_encode (p : (⟨S4194304x3, .f32⟩ : BufTy).Contents (Elt F)) : val_main_v98 (F := F) p = encode p := by
  funext i
  obtain ⟨n, k, rfl⟩ : ∃ (n : Fin 4194304) (k : Fin 16), i = ix2 n k := ⟨i 0, i 1, eq_ix2 i⟩
  rw [encode_apply]
  unfold val_main_v98
  have hi : ∀ (k : Fin 16) (b : Fin 2), b.cast rfl ≠ (1 : Fin 2) →
      ((ix2 n (0 : Fin 1) : S4194304x1.Idx) b).val = ((ix2 n k : S4194304x16.Idx) (b.cast rfl)).val :=
    fun k b hb => match b, hb with | ⟨0, _⟩, _ => rfl | ⟨1, _⟩, hb => absurd rfl hb
  match k with
  | ⟨0, _⟩ =>
    exact Eq.trans (concatenate_apply_piece (t := S4194304x16) (1 : Fin 2) _ _ _ 0 (by show (0 : Nat) < 16; decide) S4194304x1 _ rfl rfl 0 rfl (ix2 n (0 : Fin 1)) (hi _) rfl)
      ((val_main_v82_apply _).trans (column_of p (val_main_v10 (F := F)) _ ⟨0, by decide⟩ rfl))
  | ⟨1, _⟩ =>
    exact Eq.trans (concatenate_apply_piece (t := S4194304x16) (1 : Fin 2) _ _ _ 1 (by show (1 : Nat) < 16; decide) S4194304x1 _ rfl rfl 1 rfl (ix2 n (0 : Fin 1)) (hi _) rfl)
      ((val_main_v83_apply p _).trans (column_of p (val_main_v12 (F := F) p) _ ⟨1, by decide⟩ rfl))
  | ⟨2, _⟩ =>
    exact Eq.trans (concatenate_apply_piece (t := S4194304x16) (1 : Fin 2) _ _ _ 2 (by show (2 : Nat) < 16; decide) S4194304x1 _ rfl rfl 2 rfl (ix2 n (0 : Fin 1)) (hi _) rfl)
      ((val_main_v84_apply p _).trans (column_of p (val_main_v14 (F := F) p) _ ⟨2, by decide⟩ rfl))
  | ⟨3, _⟩ =>
    exact Eq.trans (concatenate_apply_piece (t := S4194304x16) (1 : Fin 2) _ _ _ 3 (by show (3 : Nat) < 16; decide) S4194304x1 _ rfl rfl 3 rfl (ix2 n (0 : Fin 1)) (hi _) rfl)
      ((val_main_v85_apply p _).trans (column_of p (val_main_v16 (F := F) p) _ ⟨3, by decide⟩ rfl))
  | ⟨4, _⟩ =>
    exact Eq.trans (concatenate_apply_piece (t := S4194304x16) (1 : Fin 2) _ _ _ 4 (by show (4 : Nat) < 16; decide) S4194304x1 _ rfl rfl 4 rfl (ix2 n (0 : Fin 1)) (hi _) rfl)
      ((val_main_v86_apply p _).trans (column_of p (val_main_v24 (F := F) p) _ ⟨4, by decide⟩ rfl))
  | ⟨5, _⟩ =>
    exact Eq.trans (concatenate_apply_piece (t := S4194304x16) (1 : Fin 2) _ _ _ 5 (by show (5 : Nat) < 16; decide) S4194304x1 _ rfl rfl 5 rfl (ix2 n (0 : Fin 1)) (hi _) rfl)
      ((val_main_v87_apply p _).trans (column_of p (val_main_v26 (F := F) p) _ ⟨5, by decide⟩ rfl))
  | ⟨6, _⟩ =>
    exact Eq.trans (concatenate_apply_piece (t := S4194304x16) (1 : Fin 2) _ _ _ 6 (by show (6 : Nat) < 16; decide) S4194304x1 _ rfl rfl 6 rfl (ix2 n (0 : Fin 1)) (hi _) rfl)
      ((val_main_v88_apply p _).trans (column_of p (val_main_v32 (F := F) p) _ ⟨6, by decide⟩ rfl))
  | ⟨7, _⟩ =>
    exact Eq.trans (concatenate_apply_piece (t := S4194304x16) (1 : Fin 2) _ _ _ 7 (by show (7 : Nat) < 16; decide) S4194304x1 _ rfl rfl 7 rfl (ix2 n (0 : Fin 1)) (hi _) rfl)
      ((val_main_v89_apply p _).trans (column_of p (val_main_v34 (F := F) p) _ ⟨7, by decide⟩ rfl))
  | ⟨8, _⟩ =>
    exact Eq.trans (concatenate_apply_piece (t := S4194304x16) (1 : Fin 2) _ _ _ 8 (by show (8 : Nat) < 16; decide) S4194304x1 _ rfl rfl 8 rfl (ix2 n (0 : Fin 1)) (hi _) rfl)
      ((val_main_v90_apply p _).trans (column_of p (val_main_v37 (F := F) p) _ ⟨8, by decide⟩ rfl))
  | ⟨9, _⟩ =>
    exact Eq.trans (concatenate_apply_piece (t := S4194304x16) (1 : Fin 2) _ _ _ 9 (by show (9 : Nat) < 16; decide) S4194304x1 _ rfl rfl 9 rfl (ix2 n (0 : Fin 1)) (hi _) rfl)
      ((val_main_v91_apply p _).trans (column_of p (val_main_v43 (F := F) p) _ ⟨9, by decide⟩ rfl))
  | ⟨10, _⟩ =>
    exact Eq.trans (concatenate_apply_piece (t := S4194304x16) (1 : Fin 2) _ _ _ 10 (by show (10 : Nat) < 16; decide) S4194304x1 _ rfl rfl 10 rfl (ix2 n (0 : Fin 1)) (hi _) rfl)
      ((val_main_v92_apply p _).trans (column_of p (val_main_v46 (F := F) p) _ ⟨10, by decide⟩ rfl))
  | ⟨11, _⟩ =>
    exact Eq.trans (concatenate_apply_piece (t := S4194304x16) (1 : Fin 2) _ _ _ 11 (by show (11 : Nat) < 16; decide) S4194304x1 _ rfl rfl 11 rfl (ix2 n (0 : Fin 1)) (hi _) rfl)
      ((val_main_v93_apply p _).trans (column_of p (val_main_v53 (F := F) p) _ ⟨11, by decide⟩ rfl))
  | ⟨12, _⟩ =>
    exact Eq.trans (concatenate_apply_piece (t := S4194304x16) (1 : Fin 2) _ _ _ 12 (by show (12 : Nat) < 16; decide) S4194304x1 _ rfl rfl 12 rfl (ix2 n (0 : Fin 1)) (hi _) rfl)
      ((val_main_v94_apply p _).trans (column_of p (val_main_v64 (F := F) p) _ ⟨12, by decide⟩ rfl))
  | ⟨13, _⟩ =>
    exact Eq.trans (concatenate_apply_piece (t := S4194304x16) (1 : Fin 2) _ _ _ 13 (by show (13 : Nat) < 16; decide) S4194304x1 _ rfl rfl 13 rfl (ix2 n (0 : Fin 1)) (hi _) rfl)
      ((val_main_v95_apply p _).trans (column_of p (val_main_v71 (F := F) p) _ ⟨13, by decide⟩ rfl))
  | ⟨14, _⟩ =>
    exact Eq.trans (concatenate_apply_piece (t := S4194304x16) (1 : Fin 2) _ _ _ 14 (by show (14 : Nat) < 16; decide) S4194304x1 _ rfl rfl 14 rfl (ix2 n (0 : Fin 1)) (hi _) rfl)
      ((val_main_v96_apply p _).trans (column_of p (val_main_v75 (F := F) p) _ ⟨14, by decide⟩ rfl))
  | ⟨15, _⟩ =>
    exact Eq.trans (concatenate_apply_piece (t := S4194304x16) (1 : Fin 2) _ _ _ 15 (by show (15 : Nat) < 16; decide) S4194304x1 _ rfl rfl 15 rfl (ix2 n (0 : Fin 1)) (hi _) rfl)
      ((val_main_v97_apply p _).trans (column_of p (val_main_v81 (F := F) p) _ ⟨15, by decide⟩ rfl))
  | ⟨_ + 16, h⟩ => exact absurd h (by omega)

end Cert.ReferenceIdeal.Encode

end
-- ==== Proof.Body.lean ====
/-
  What the kernel body stores, entry by entry.

  The body loads one block `L` of three rows and 16384 lanes (row `a`, lane `j` is coordinate `a` of the block's
  point `j`), centres it, takes its three rows `x, y, z` as `[1, 16384]` vectors, forms the sixteen basis values
  as `[1, 16384]` vectors by pointwise products and differences, stacks them into `[16, 16384]` (channel on the
  first axis), transposes to `[16384, 16]` (point, channel) and re-reads that row-major as `[2048, 128]`: eight
  consecutive points' sixteen channels fill one row of 128 lanes.

  So entry `(r, l)` of the stored block sits at row-major position `128 r + l = 16 (8 r + l / 16) + l % 16`: it is
  channel `l % 16` of the block's point `8 r + l / 16`, that is basis value `l % 16` at the centred point. The
  body's products and differences are grouped exactly as in `basis`, so no law of arithmetic is used.
-/
import proofs.«113142_j88450556494138_2_alg».proof.Proof.Gen.KernelIdeal.Skeleton
import proofs.«113142_j88450556494138_2_alg».proof.Proof.Spec
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.ValueIdx Cert.SphHarm

variable {F : FTy → Type} [FloatOps F]

/-! ## Which point and which channel a lane of the packed block holds -/

/-- The block's point whose channels lie at row `r`, lane `l` of the packed block: `8 r + l / 16`. -/
def pointOf (r : Fin 2048) (l : Fin 128) : Fin 16384 :=
  ⟨8 * r.val + l.val / 16, by have := r.isLt; have := l.isLt; omega⟩

/-- The channel at lane `l`: `l % 16`. -/
def channelOf (l : Fin 128) : Fin 16 := ⟨l.val % 16, Nat.mod_lt _ (by decide)⟩

/-! ## The centred block and its three rows -/

/-- The centred block, entry by entry. -/
theorem centred_apply (L : Vec F S3x16384 .f32) (i : S3x16384.Idx) : k0_pay8 L i = centre (L i) := by
  have e : shapeCast S3x16384 L shapeCasts_S3x16384_S3x16384 = L := shapeCast_self L _
  show FloatOps.mulf (FloatOps.subf (shapeCast S3x16384 L shapeCasts_S3x16384_S3x16384 i) (FloatOps.ofBits .f32 0x3F000000#32))
      (FloatOps.ofBits .f32 0x40000000#32) = _
  rw [e]; rfl

/-- Row 0 of the centred block at lane `j`: the first centred coordinate of point `j`. -/
theorem xrow (L : Vec F S3x16384 .f32) (j : Fin 16384) : k0_pay9 L (ix2 (0 : Fin 1) j) = centre (L (ix2 (0 : Fin 3) j)) :=
  (extractStridedSlice_apply ![0, 0] (k0_pay8 L) slices_S3x16384_o0_0_S1x16384 (ix2 (0 : Fin 1) j) (ix2 (0 : Fin 3) j)
    (fun a => match a with | ⟨0, _⟩ => rfl | ⟨1, _⟩ => (Nat.zero_add _).symm)).trans (centred_apply L _)

/-- Row 1 at lane `j`: the second centred coordinate. -/
theorem yrow (L : Vec F S3x16384 .f32) (j : Fin 16384) : k0_pay10 L (ix2 (0 : Fin 1) j) = centre (L (ix2 (1 : Fin 3) j)) :=
  (extractStridedSlice_apply ![1, 0] (k0_pay8 L) slices_S3x16384_o1_0_S1x16384 (ix2 (0 : Fin 1) j) (ix2 (1 : Fin 3) j)
    (fun a => match a with | ⟨0, _⟩ => rfl | ⟨1, _⟩ => (Nat.zero_add _).symm)).trans (centred_apply L _)

/-- Row 2 at lane `j`: the third centred coordinate. -/
theorem zrow (L : Vec F S3x16384 .f32) (j : Fin 16384) : k0_pay11 L (ix2 (0 : Fin 1) j) = centre (L (ix2 (2 : Fin 3) j)) :=
  (extractStridedSlice_apply ![2, 0] (k0_pay8 L) slices_S3x16384_o2_0_S1x16384 (ix2 (0 : Fin 1) j) (ix2 (2 : Fin 3) j)
    (fun a => match a with | ⟨0, _⟩ => rfl | ⟨1, _⟩ => (Nat.zero_add _).symm)).trans (centred_apply L _)

/-! ## The sixteen rows -/

/-- A `[1, 16384]` vector that is, at lane `j`, basis value `k` of the three rows is basis value `k` at the centred
    point `j` of the block. -/
theorem row_of (L : Vec F S3x16384 .f32) (v : S1x16384.Idx → F .f32) (j : Fin 16384) (k : Fin 16)
    (h : v (ix2 (0 : Fin 1) j) = basis (k0_pay9 L (ix2 (0 : Fin 1) j)) (k0_pay10 L (ix2 (0 : Fin 1) j)) (k0_pay11 L (ix2 (0 : Fin 1) j)) k) :
    v (ix2 (0 : Fin 1) j) = basis (centre (L (ix2 (0 : Fin 3) j))) (centre (L (ix2 (1 : Fin 3) j))) (centre (L (ix2 (2 : Fin 3) j))) k := by
  rw [h, xrow, yrow, zrow]

set_option maxHeartbeats 1600000 in
/-- THE STACK of the sixteen rows at `(k, j)` is basis value `k` at the centred point `j`: row `k` of the stack is the
    body's vector for channel `k` (the rows have extent one along the stacked axis, so the rows before it take up `k`
    places), and that vector is, by the body's own text, basis value `k` of the three rows. -/
theorem stack_apply (L : Vec F S3x16384 .f32) (k : Fin 16) (j : Fin 16384) :
    concatenate S16x16384 0 [⟨S1x16384, k0_pay16 (F := F)⟩, ⟨S1x16384, k0_pay17 L⟩, ⟨S1x16384, k0_pay18 L⟩, ⟨S1x16384, k0_pay19 L⟩, ⟨S1x16384, k0_pay20 L⟩, ⟨S1x16384, k0_pay21 L⟩, ⟨S1x16384, k0_pay22 L⟩, ⟨S1x16384, k0_pay23 L⟩, ⟨S1x16384, k0_pay24 L⟩, ⟨S1x16384, k0_pay25 L⟩, ⟨S1x16384, k0_pay1 (k0_pay11 L) (k0_pay15 L)⟩, ⟨S1x16384, k0_pay2 (k0_pay10 L) (k0_pay12 L) (k0_pay13 L) (k0_pay14 L)⟩, ⟨S1x16384, k0_pay3 (k0_pay11 L) (k0_pay12 L) (k0_pay13 L) (k0_pay14 L)⟩, ⟨S1x16384, k0_pay4 (k0_pay9 L) (k0_pay12 L) (k0_pay13 L) (k0_pay14 L)⟩, ⟨S1x16384, k0_pay5 (k0_pay11 L) (k0_pay12 L) (k0_pay13 L)⟩, ⟨S1x16384, k0_pay6 (k0_pay9 L) (k0_pay12 L) (k0_pay13 L)⟩] concatenates_S1x16384_S1x16384_S1x16384_S1x16384_S1x16384_S1x16384_S1x16384_S1x16384_S1x16384_S1x16384_S1x16384_S1x16384_S1x16384_S1x16384_S1x16384_S1x16384_S16x16384_d0 (ix2 k j) = basis (centre (L (ix2 (0 : Fin 3) j))) (centre (L (ix2 (1 : Fin 3) j))) (centre (L (ix2 (2 : Fin 3) j))) k := by
  have hi : ∀ (k : Fin 16) (b : Fin 2), b.cast rfl ≠ (0 : Fin 2) →
      ((ix2 (0 : Fin 1) j : S1x16384.Idx) b).val = ((ix2 k j : S16x16384.Idx) (b.cast rfl)).val :=
    fun k b hb => match b, hb with
      | ⟨0, _⟩, hb => absurd rfl hb
      | ⟨1, _⟩, _ => rfl
  match k with
  | ⟨0, _⟩ =>
    exact Eq.trans (concatenate_apply_piece (t := S16x16384) (0 : Fin 2) _ _ _ 0 (by show (0 : Nat) < 16; decide) S1x16384 _ rfl rfl 0 rfl (ix2 (0 : Fin 1) j) (hi _) rfl) (row_of L (k0_pay16 (F := F)) j ⟨0, by decide⟩ rfl)
  | ⟨1, _⟩ =>
    exact Eq.trans (concatenate_apply_piece (t := S16x16384) (0 : Fin 2) _ _ _ 1 (by show (1 : Nat) < 16; decide) S1x16384 _ rfl rfl 1 rfl (ix2 (0 : Fin 1) j) (hi _) rfl) (row_of L (k0_pay17 L) j ⟨1, by decide⟩ rfl)
  | ⟨2, _⟩ =>
    exact Eq.trans (concatenate_apply_piece (t := S16x16384) (0 : Fin 2) _ _ _ 2 (by show (2 : Nat) < 16; decide) S1x16384 _ rfl rfl 2 rfl (ix2 (0 : Fin 1) j) (hi _) rfl) (row_of L (k0_pay18 L) j ⟨2, by decide⟩ rfl)
  | ⟨3, _⟩ =>
    exact Eq.trans (concatenate_apply_piece (t := S16x16384) (0 : Fin 2) _ _ _ 3 (by show (3 : Nat) < 16; decide) S1x16384 _ rfl rfl 3 rfl (ix2 (0 : Fin 1) j) (hi _) rfl) (row_of L (k0_pay19 L) j ⟨3, by decide⟩ rfl)
  | ⟨4, _⟩ =>
    exact Eq.trans (concatenate_apply_piece (t := S16x16384) (0 : Fin 2) _ _ _ 4 (by show (4 : Nat) < 16; decide) S1x16384 _ rfl rfl 4 rfl (ix2 (0 : Fin 1) j) (hi _) rfl) (row_of L (k0_pay20 L) j ⟨4, by decide⟩ rfl)
  | ⟨5, _⟩ =>
    exact Eq.trans (concatenate_apply_piece (t := S16x16384) (0 : Fin 2) _ _ _ 5 (by show (5 : Nat) < 16; decide) S1x16384 _ rfl rfl 5 rfl (ix2 (0 : Fin 1) j) (hi _) rfl) (row_of L (k0_pay21 L) j ⟨5, by decide⟩ rfl)
  | ⟨6, _⟩ =>
    exact Eq.trans (concatenate_apply_piece (t := S16x16384) (0 : Fin 2) _ _ _ 6 (by show (6 : Nat) < 16; decide) S1x16384 _ rfl rfl 6 rfl (ix2 (0 : Fin 1) j) (hi _) rfl) (row_of L (k0_pay22 L) j ⟨6, by decide⟩ rfl)
  | ⟨7, _⟩ =>
    exact Eq.trans (concatenate_apply_piece (t := S16x16384) (0 : Fin 2) _ _ _ 7 (by show (7 : Nat) < 16; decide) S1x16384 _ rfl rfl 7 rfl (ix2 (0 : Fin 1) j) (hi _) rfl) (row_of L (k0_pay23 L) j ⟨7, by decide⟩ rfl)
  | ⟨8, _⟩ =>
    exact Eq.trans (concatenate_apply_piece (t := S16x16384) (0 : Fin 2) _ _ _ 8 (by show (8 : Nat) < 16; decide) S1x16384 _ rfl rfl 8 rfl (ix2 (0 : Fin 1) j) (hi _) rfl) (row_of L (k0_pay24 L) j ⟨8, by decide⟩ rfl)
  | ⟨9, _⟩ =>
    exact Eq.trans (concatenate_apply_piece (t := S16x16384) (0 : Fin 2) _ _ _ 9 (by show (9 : Nat) < 16; decide) S1x16384 _ rfl rfl 9 rfl (ix2 (0 : Fin 1) j) (hi _) rfl) (row_of L (k0_pay25 L) j ⟨9, by decide⟩ rfl)
  | ⟨10, _⟩ =>
    exact Eq.trans (concatenate_apply_piece (t := S16x16384) (0 : Fin 2) _ _ _ 10 (by show (10 : Nat) < 16; decide) S1x16384 _ rfl rfl 10 rfl (ix2 (0 : Fin 1) j) (hi _) rfl) (row_of L (k0_pay1 (k0_pay11 L) (k0_pay15 L)) j ⟨10, by decide⟩ rfl)
  | ⟨11, _⟩ =>
    exact Eq.trans (concatenate_apply_piece (t := S16x16384) (0 : Fin 2) _ _ _ 11 (by show (11 : Nat) < 16; decide) S1x16384 _ rfl rfl 11 rfl (ix2 (0 : Fin 1) j) (hi _) rfl) (row_of L (k0_pay2 (k0_pay10 L) (k0_pay12 L) (k0_pay13 L) (k0_pay14 L)) j ⟨11, by decide⟩ rfl)
  | ⟨12, _⟩ =>
    exact Eq.trans (concatenate_apply_piece (t := S16x16384) (0 : Fin 2) _ _ _ 12 (by show (12 : Nat) < 16; decide) S1x16384 _ rfl rfl 12 rfl (ix2 (0 : Fin 1) j) (hi _) rfl) (row_of L (k0_pay3 (k0_pay11 L) (k0_pay12 L) (k0_pay13 L) (k0_pay14 L)) j ⟨12, by decide⟩ rfl)
  | ⟨13, _⟩ =>
    exact Eq.trans (concatenate_apply_piece (t := S16x16384) (0 : Fin 2) _ _ _ 13 (by show (13 : Nat) < 16; decide) S1x16384 _ rfl rfl 13 rfl (ix2 (0 : Fin 1) j) (hi _) rfl) (row_of L (k0_pay4 (k0_pay9 L) (k0_pay12 L) (k0_pay13 L) (k0_pay14 L)) j ⟨13, by decide⟩ rfl)
  | ⟨14, _⟩ =>
    exact Eq.trans (concatenate_apply_piece (t := S16x16384) (0 : Fin 2) _ _ _ 14 (by show (14 : Nat) < 16; decide) S1x16384 _ rfl rfl 14 rfl (ix2 (0 : Fin 1) j) (hi _) rfl) (row_of L (k0_pay5 (k0_pay11 L) (k0_pay12 L) (k0_pay13 L)) j ⟨14, by decide⟩ rfl)
  | ⟨15, _⟩ =>
    exact Eq.trans (concatenate_apply_piece (t := S16x16384) (0 : Fin 2) _ _ _ 15 (by show (15 : Nat) < 16; decide) S1x16384 _ rfl rfl 15 rfl (ix2 (0 : Fin 1) j) (hi _) rfl) (row_of L (k0_pay6 (k0_pay9 L) (k0_pay12 L) (k0_pay13 L)) j ⟨15, by decide⟩ rfl)
  | ⟨_ + 16, h⟩ => exact absurd h (by omega)

/-! ## The stored block -/

/-- THE STORED BLOCK at row `r`, lane `l`: basis value `l % 16` at the centred point `8 r + l / 16` of the loaded
    block. The re-reading `[16384, 16] → [2048, 128]` keeps the row-major position, `16 (8 r + l / 16) + l % 16 = 128 r + l`;
    the transpose swaps point and channel; the stack is read by `stack_apply`. -/
theorem stored_apply (L : Vec F S3x16384 .f32) (r : Fin 2048) (l : Fin 128) :
    k0_pay7 (k0_pay16 (F := F)) (k0_pay17 L) (k0_pay18 L) (k0_pay19 L) (k0_pay20 L) (k0_pay21 L) (k0_pay22 L) (k0_pay23 L) (k0_pay24 L) (k0_pay25 L)
        (k0_pay1 (k0_pay11 L) (k0_pay15 L)) (k0_pay2 (k0_pay10 L) (k0_pay12 L) (k0_pay13 L) (k0_pay14 L))
        (k0_pay3 (k0_pay11 L) (k0_pay12 L) (k0_pay13 L) (k0_pay14 L)) (k0_pay4 (k0_pay9 L) (k0_pay12 L) (k0_pay13 L) (k0_pay14 L))
        (k0_pay5 (k0_pay11 L) (k0_pay12 L) (k0_pay13 L)) (k0_pay6 (k0_pay9 L) (k0_pay12 L) (k0_pay13 L)) (ix2 r l)
      = basis (centre (L (ix2 (0 : Fin 3) (pointOf r l)))) (centre (L (ix2 (1 : Fin 3) (pointOf r l))))
          (centre (L (ix2 (2 : Fin 3) (pointOf r l)))) (channelOf l) := by
  unfold k0_pay7
  refine (shapeCast_apply _ shapeCasts_S16384x16_S2048x128 (ix2 r l) (ix2 (pointOf r l) (channelOf l)) ?_).trans ?_
  · rw [Shape.rowMajor_val_two, Shape.rowMajor_val_two]
    have hr := r.isLt; have hl := l.isLt
    show (8 * r.val + l.val / 16) * 16 + l.val % 16 = r.val * 128 + l.val
    omega
  refine (transpose_apply [1, 0] _ transposes_S16x16384_p1_0_S16384x16 (ix2 (pointOf r l) (channelOf l)) (ix2 (channelOf l) (pointOf r l))
    (fun b => match b with | ⟨0, _⟩ => rfl | ⟨1, _⟩ => rfl)).trans ?_
  exact stack_apply L (channelOf l) (pointOf r l)

end Cert.KernelIdeal.Body

end
-- ==== Proof.Packed.lean ====
/-
  The kernel's result array is the encoding of its argument.

  The program transposes the point array `[4194304, 3]` to `[3, 4194304]`, runs the body on a grid of 256 points,
  and re-reads the body's output array `[524288, 128]` row-major as `[4194304, 16]`.

  At grid point `t` the body is given block `t` of the transposed array — its three rows, lanes `16384 t … 16384 t +
  16383`: row `a`, lane `j` of the block is coordinate `a` of point `16384 t + j` — and what it leaves (`Body.lean`:
  at `(r, l)` channel `l % 16` of the block's point `8 r + l / 16`) is written to rows `2048 t … 2048 t + 2047` of the
  output array. Write `packed p` for the encoding `encode p` re-read row-major as `[524288, 128]`: its entry `(R, l)`
  is channel `l % 16` of point `8 R + l / 16`. With `R = 2048 t + r` that point is `16384 t + (8 r + l / 16)`, the very
  point the body read: every grid point writes its own block of `packed p`. The 256 blocks tile the output array (row
  `R` lies in block `R / 2048`), so the output array ends as `packed p`, and re-reading `packed p` row-major as
  `[4194304, 16]` gives `encode p` back.
-/
import proofs.«113142_j88450556494138_2_alg».proof.Proof.Gen.KernelIdeal.Frame
import proofs.«113142_j88450556494138_2_alg».proof.Proof.Body
import proofs.«113142_j88450556494138_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Packed

open Cert.KernelIdeal Cert.KernelIdeal.Gen Cert.KernelIdeal.Body
open Idealize.ShloMosaic Idealize.ShloMosaic.TcCoe Idealize.SL.Sem Idealize.ShloMosaic.ValueIdx Cert.SphHarm
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The point array the program is launched with, on core `c`. -/
abbrev pts (c : Dev nD) : S4194304x3.Idx → Elt F .f32 := m ((c : Thread nD τ).loc main_arg0)

/-! ## The blocks' places in their arrays -/

/-- Over the 256 grid points: the input block at point `t` is block `(0, t)` of the transposed array, the output
    block is block `(t, 0)` of the output array. -/
theorem idx_facts : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

/-- The point of the whole array at lane `j` of the input block at grid point `t`: `16384 t + j`. -/
def laneOf (t : Fin cfg0.N) (j : Fin 16384) : Fin 4194304 :=
  ⟨16384 * t.val + j.val, by have hN : cfg0.N = 256 := N_0; have := t.isLt; have := j.isLt; omega⟩

/-- The row of the output array at row `r` of the output block at grid point `t`: `2048 t + r`. -/
def rowAt (t : Fin cfg0.N) (r : Fin 2048) : Fin 524288 :=
  ⟨2048 * t.val + r.val, by have hN : cfg0.N = 256 := N_0; have := t.isLt; have := r.isLt; omega⟩

/-- The point whose channels lie at row `R`, lane `l` of the output array: `8 R + l / 16`. -/
def pointAt (R : Fin 524288) (l : Fin 128) : Fin 4194304 :=
  ⟨8 * R.val + l.val / 16, by have := R.isLt; have := l.isLt; omega⟩

/-! ## The input block -/

/-- The host transposition before the region: the region finds the transposed point array. -/
theorem V_transposed (c : Dev nD) :
    (V m c main_v0 : S3x4194304.Idx → Elt F .f32)
      = transpose S3x4194304 [1, 0] (pts m c) transposes_S4194304x3_S3x4194304_1_0 := by
  show StableHlo.after hostOps0 (fun b => m (c, b)) (Proc.devRef .tc main_v0) = _
  after_results

/-- Row `a`, lane `j` of the input block at grid point `t` is coordinate `a` of point `16384 t + j`. -/
theorem iblk_apply (c : Dev nD) (t : Fin cfg0.N) (a : Fin 3) (j : Fin 16384) :
    (iblk m c 0 t : S3x16384.Idx → Elt F .f32) (ix2 a j) = pts m c (ix2 (laneOf t j) a) := by
  obtain ⟨e0, e1, -, -⟩ := idx_facts t
  unfold iblk
  rw [View.read_apply]
  show (V m c main_v0 : S3x4194304.Idx → Elt F .f32) (((cfg0.win 0).blk t).view.emb (ix2 a j)) = _
  rw [V_transposed]
  refine transpose_apply [1, 0] (pts m c) transposes_S4194304x3_S3x4194304_1_0 _ (ix2 (laneOf t j) a) fun b => ?_
  match b with
  | ⟨0, _⟩ => show a.val = win0_0.index t (0 : Fin 2) * 3 + 1 * a.val; omega
  | ⟨1, _⟩ => show 16384 * t.val + j.val = win0_0.index t (1 : Fin 2) * 16384 + 1 * j.val; omega

/-! ## The output array -/

theorem unpack : S4194304x16.ShapeCasts S524288x128 := by decide

/-- The encoding re-read row-major as `[524288, 128]`: eight points' sixteen channels to a row. -/
def packed (p : S4194304x3.Idx → F .f32) : S524288x128.Idx → F .f32 := shapeCast S524288x128 (encode p) unpack

/-- Entry `(R, l)` of the packed encoding: channel `l % 16` of point `8 R + l / 16`, the row-major position being
    `128 R + l = 16 (8 R + l / 16) + l % 16`. -/
theorem packed_apply (p : S4194304x3.Idx → F .f32) (R : Fin 524288) (l : Fin 128) :
    packed p (ix2 R l) = basis (centre (p (ix2 (pointAt R l) (0 : Fin 3)))) (centre (p (ix2 (pointAt R l) (1 : Fin 3))))
      (centre (p (ix2 (pointAt R l) (2 : Fin 3)))) (channelOf l) := by
  unfold packed
  refine (shapeCast_apply (encode p) unpack (ix2 R l) (ix2 (pointAt R l) (channelOf l)) ?_).trans (encode_apply p _ _)
  rw [Shape.rowMajor_val_two, Shape.rowMajor_val_two]
  have hR := R.isLt; have hl := l.isLt
  show (8 * R.val + l.val / 16) * 16 + l.val % 16 = R.val * 128 + l.val
  omega

/-- WHAT GRID POINT `t` WRITES BACK is block `t` of the packed encoding of the point array. -/
theorem flushed_eq (c : Dev nD) (t : Fin cfg0.N) :
    (dats m 0 c).flushed 1 t = ((cfg0.win 1).blk t).view.read (Elt F) (packed (pts m c)) := by
  show (cfg0.win 1).cut (grid0.coords t) ((dats m 0 c).after 1 t) = _
  rw [after0_1]
  unfold out0_1
  rw [View.canon_unit_zero hz]
  simp only [View.ld_unit_zero (S := S3x16384) hz]
  funext y
  obtain ⟨r, l, rfl⟩ : ∃ (r : Fin 2048) (l : Fin 128), (y : S2048x128.Idx) = ix2 r l := ⟨y 0, y 1, eq_ix2 _⟩
  refine (stored_apply (iblk m c 0 t) r l).trans ?_
  rw [iblk_apply, iblk_apply, iblk_apply]
  show _ = packed (pts m c) (((cfg0.win 1).blk t).view.emb (ix2 r l))
  obtain ⟨-, -, e2, e3⟩ := idx_facts t
  have hemb : ((cfg0.win 1).blk t).view.emb (ix2 r l) = ix2 (rowAt t r) l := by
    funext a; apply Fin.ext
    match a with
    | ⟨0, _⟩ => show win0_1.index t (0 : Fin 2) * 2048 + 1 * r.val = 2048 * t.val + r.val; omega
    | ⟨1, _⟩ => show win0_1.index t (1 : Fin 2) * 128 + 1 * l.val = l.val; omega
  rw [hemb, packed_apply]
  have hp : laneOf t (pointOf r l) = pointAt (rowAt t r) l :=
    Fin.ext (by show 16384 * t.val + (8 * r.val + l.val / 16) = 8 * (2048 * t.val + r.val) + l.val / 16; omega)
  rw [hp]

/-- An index of the output array is in grid point `t`'s block iff each coordinate is in the block's range. -/
theorem mem_blk (t : Fin cfg0.N) (i : S524288x128.Idx) :
    i ∈ ((cfg0.win 1).blk t).view.set ↔ ∀ a : Fin 2, win0_1.index t a * S2048x128.size a ≤ (i a).val
      ∧ (i a).val < win0_1.index t a * S2048x128.size a + S2048x128.size a := by
  show i ∈ ((View.whole main_v1).slice (win0_1.rect t)).set ↔ _
  rw [View.set_slice_whole, Rect.mem_set_unit]
  exact Iff.rfl

/-- The blocks tile the output array: row `R` lies in the block of grid point `R / 2048`. -/
theorem covered (i : S524288x128.Idx) :
    ∃ t : Fin cfg0.N, (cfg0.win 1).flush t = true ∧ i ∈ ((cfg0.win 1).blk t).view.set := by
  have h0 : (i 0).val < 524288 := (i 0).isLt
  have h1 : (i 1).val < 128 := (i 1).isLt
  have hN : cfg0.N = 256 := N_0
  obtain ⟨t, ht⟩ : ∃ t : Fin cfg0.N, t.val = (i 0).val / 2048 := ⟨⟨(i 0).val / 2048, by rw [hN]; omega⟩, rfl⟩
  obtain ⟨-, -, e2, e3⟩ := idx_facts t
  refine ⟨t, flush0_1 t, ?_⟩
  rw [mem_blk]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 128 ≤ (i 1).val ∧ (i 1).val < win0_1.index t (1 : Fin 2) * 128 + 128
    omega

/-- THE OUTPUT ARRAY after the run is the packed encoding of the point array. -/
theorem final (c : Dev nD) : (dats m 0 c).arrAt 1 cfg0.N = packed (pts m c) :=
  (dats m 0 c).arrAt_eq_of_cover 1 (packed (pts m c)) (fun t _ => flushed_eq m c t) covered

/-! ## The result -/

/-- The program's result: the output array re-read row-major as `[4194304, 16]` is the encoding. -/
theorem result_eq (c : Dev nD) :
    Pipeline.afterTail₀ cfgs (dats m) 0 (V0 m) [hostOps1] c main_v2 = encode (pts m c) := by
  have e : Pipeline.withArrays (cfgs 0).spec c (V0 m c) (fun w => (dats m 0 c).arrAt w (cfgs 0).N) (Proc.devRef .tc main_v1)
      = packed (pts m c) :=
    (Pipeline.withArrays_arr spec0 launch0.win.arr_inj c (V0 m c) (fun w => (dats m 0 c).arrAt w cfg0.N) 1).trans (final m c)
  unfold Pipeline.afterTail₀
  show StableHlo.after hostOps1 _ (Proc.devRef .tc main_v2) = _
  after_results
  funext i
  show shapeCast S4194304x16 (Pipeline.withArrays (cfgs 0).spec c (V0 m c) (fun w => (dats m 0 c).arrAt w (cfgs 0).N)
      (Proc.devRef .tc main_v1)) shapeCasts_S524288x128_S4194304x16 i = _
  rw [e]
  exact congrFun (shapeCast_shapeCast (encode (pts m c)) unpack shapeCasts_S524288x128_S4194304x16) i

/-! ## The run, read -/

/-- Every weakly fair execution of the program terminates with the result array at the encoding of the point
    array, and the point array unchanged. -/
theorem run : θ_run defs (onTc (τ := τ) (main (F := F))) ⟨m, fun _ => 0, ρ⟩ fun r => ∀ c : Dev nD,
      r.2.mem ((c : Thread nD τ).loc main_v2) = encode (pts m c)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Packed

end
-- ==== Proof.lean ====
/-
  A Pallas kernel for the degree-4 real spherical-harmonics encoding of 4194304 points of the unit cube, against
  its jnp reference: over the extended reals the two programs compute the same array `[4194304, 16]`.

  Both programs centre each coordinate, `a ↦ (a − ½)·2`, and evaluate the same sixteen polynomials of the centred
  point `(x, y, z)` (`Spec.lean`: `centre`, `basis`, `encode`), with the same 32-bit constants and the same grouping
  of every product and difference. They differ only in how the arrays are laid out. The reference works on whole
  columns of the point array and joins sixteen result columns (`RefEncode.lean`: its result is `encode` of its
  argument). The kernel transposes the point array, gives each of 256 grid points a block of three rows and 16384
  lanes, stacks the sixteen result rows, transposes them to (point, channel) and packs eight points' sixteen
  channels into one row of 128 lanes; the program re-reads the packed array as `[4194304, 16]` (`Body.lean`: what
  one grid point stores; `Packed.lean`: the blocks tile the packed array, and the program's result is `encode` of
  its argument). Since no law of arithmetic is used, the equality holds at every value of the inputs, infinite ones
  included: the finiteness precondition is not needed for it.

  The idealized kernel is the kernel's own text read over the extended reals (no operation was rewritten), so
  `preserves` has nothing to state. The two kernel programs' frames are the generated ones; the reference's frame is
  its generated run with the result dropped.
-/
import proofs.«113142_j88450556494138_2_alg».proof.Defs
import proofs.«113142_j88450556494138_2_alg».proof.Proof.Gen.Kernel
import proofs.«113142_j88450556494138_2_alg».proof.Proof.Gen.Kernel.Skeleton
import proofs.«113142_j88450556494138_2_alg».proof.Proof.Gen.Kernel.Launch
import proofs.«113142_j88450556494138_2_alg».proof.Proof.Gen.Kernel.Points
import proofs.«113142_j88450556494138_2_alg».proof.Proof.Gen.Kernel.Frame
import proofs.«113142_j88450556494138_2_alg».proof.Proof.Gen.KernelIdeal
import proofs.«113142_j88450556494138_2_alg».proof.Proof.Gen.KernelIdeal.Skeleton
import proofs.«113142_j88450556494138_2_alg».proof.Proof.Gen.KernelIdeal.Launch
import proofs.«113142_j88450556494138_2_alg».proof.Proof.Gen.KernelIdeal.Points
import proofs.«113142_j88450556494138_2_alg».proof.Proof.Gen.KernelIdeal.Frame
import proofs.«113142_j88450556494138_2_alg».proof.Proof.Gen.ReferenceIdeal
import proofs.«113142_j88450556494138_2_alg».proof.Proof.Gen.ReferenceIdeal.Run
import proofs.«113142_j88450556494138_2_alg».proof.Proof.Gen.ReferenceIdeal.Read
import proofs.«113142_j88450556494138_2_alg».proof.Proof.Gen.Pre_finite_inputs
import proofs.«113142_j88450556494138_2_alg».proof.Proof.Spec
import proofs.«113142_j88450556494138_2_alg».proof.Proof.RefEncode
import proofs.«113142_j88450556494138_2_alg».proof.Proof.Body
import proofs.«113142_j88450556494138_2_alg».proof.Proof.Packed
import Idealize.ShloMosaic.Adequacy
import Idealize.ShloMosaic.Init

noncomputable section

namespace Cert.Proof

open Idealize.ShloMosaic Idealize.ShloMosaic.TcCoe Idealize.SL.Sem Cert.SphHarm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at `encode` of its point array and the reference's at
    `encode` of its own; the two point arrays agree. -/
theorem algebraic : Cert.algebraic_KernelIdeal_ReferenceIdeal := by
  intro m ρ m' ρ' _ hagree
  refine ⟨fun c => encode (F := Ideal) (Cert.KernelIdeal.Packed.pts m c),
    Cert.KernelIdeal.Packed.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, Cert.ReferenceIdeal.Encode.ref_encode, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
